-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x1 : Shape := ⟨2, ![800000, 1]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : FVec F S800000x1 .f32) (main_arg2 : IVec S800000 32) (main_arg3 : IVec S800000 32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x1 .f32 := Host.absf main_arg1
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S800000x1 : Shape := ⟨2, ![800000, 1]⟩
abbrev S800000 : Shape := ⟨1, ![800000]⟩
abbrev S256x256 : Shape := ⟨2, ![256, 256]⟩
abbrev S256 : Shape := ⟨1, ![256]⟩
abbrev S_ : Shape := ⟨0, ![]⟩
abbrev S800000x256 : Shape := ⟨2, ![800000, 256]⟩
abbrev S1x256 : Shape := ⟨2, ![1, 256]⟩
abbrev S5000x256 : Shape := ⟨2, ![5000, 256]⟩

abbrev nBuf : Space → Nat
  | .hbm => 24
  | .vmem => 6
  | .smem => 0
  | _ => 0

abbrev bufTy : (tb : Table) → Fin (tcTables nBuf tb) → BufTy
  | .hbm, ⟨0, _⟩ => ⟨S50000x256, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S256x256, .f32⟩
  | .hbm, ⟨5, _⟩ => ⟨S256, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x256, .f32⟩
  | .hbm, ⟨15, _⟩ => ⟨S800000x256, .f32⟩
  | .hbm, ⟨16, _⟩ => ⟨S800000x256, .f32⟩
  | .hbm, ⟨17, _⟩ => ⟨S_, .f32⟩
  | .hbm, ⟨18, _⟩ => ⟨S50000x256, .f32⟩
  | .hbm, ⟨19, _⟩ => ⟨S800000x1, .i32⟩
  | .hbm, ⟨20, _⟩ => ⟨S50000x256, .f32⟩
  | .hbm, ⟨21, _⟩ => ⟨S256x256, .bf16⟩
  | .hbm, ⟨22, _⟩ => ⟨S1x256, .f32⟩
  | .hbm, ⟨23, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .bf16⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bitsLt_bf16_f32 : FTy.bits .bf16 < FTy.bits .f32
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v11) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x256 : Shape := ⟨2, ![50000, 256]⟩
abbrev S800000x1 : Shape := ⟨2, ![800000, 1]⟩
abbrev S800000 : Shape := ⟨1, ![800000]⟩
abbrev S256x256 : Shape := ⟨2, ![256, 256]⟩
abbrev S256 : Shape := ⟨1, ![256]⟩
abbrev S_ : Shape := ⟨0, ![]⟩
abbrev S800000x256 : Shape := ⟨2, ![800000, 256]⟩
abbrev S1x256 : Shape := ⟨2, ![1, 256]⟩

abbrev nBuf : Space → Nat
  | .hbm => 25
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x1, .f32⟩
  | .hbm, ⟨2, _⟩ => ⟨S800000, .i32⟩
  | .hbm, ⟨3, _⟩ => ⟨S800000, .i32⟩
  | .hbm, ⟨4, _⟩ => ⟨S256x256, .f32⟩
  | .hbm, ⟨5, _⟩ => ⟨S256, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x256, .f32⟩
  | .hbm, ⟨15, _⟩ => ⟨S800000x256, .f32⟩
  | .hbm, ⟨16, _⟩ => ⟨S800000x256, .f32⟩
  | .hbm, ⟨17, _⟩ => ⟨S_, .f32⟩
  | .hbm, ⟨18, _⟩ => ⟨S50000x256, .f32⟩
  | .hbm, ⟨19, _⟩ => ⟨S800000x1, .i32⟩
  | .hbm, ⟨20, _⟩ => ⟨S50000x256, .f32⟩
  | .hbm, ⟨21, _⟩ => ⟨S50000x256, .f32⟩
  | .hbm, ⟨22, _⟩ => ⟨S1x256, .f32⟩
  | .hbm, ⟨23, _⟩ => ⟨S50000x256, .f32⟩
  | .hbm, ⟨24, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Affine.lean ====
/-
  The function both programs compute once the per-node aggregate is in hand: an affine map of its rows.
  For an aggregate `a` of 50000 rows of 256 features, a 256 × 256 weight matrix `w` and a bias row `b`,
  entry `(n, j)` of the result is `∑ k, a (n, k) * w (k, j) + b j` on the extended reals: row `n` of `a` against
  column `j` of `w`, then the bias of column `j`. Nothing here depends on how `a` was produced, and no law of
  the extended reals beyond the definition of a finite sum is used, so no finiteness of the entries is needed.
-/
import Idealize.ShloMosaic.PureOps.Ideal
import Idealize.ShloMosaic.Lib.ValueIdx

noncomputable section

open scoped BigOperators

namespace Cert.Dense

open Idealize.ShloMosaic Idealize.ShloMosaic.ValueIdx

/-- Entry `(n, j)` of `a · w + b`: the sum over the 256 features `k` of `a (n, k) * w (k, j)`, plus `b j`. -/
def affineAt (a : FVec Ideal ⟨2, ![50000, 256]⟩ .f32) (w : FVec Ideal ⟨2, ![256, 256]⟩ .f32) (b : FVec Ideal ⟨1, ![256]⟩ .f32)
    (n : Fin 50000) (j : Fin 256) : EReal :=
  (∑ k : Fin 256, a (ix2 n k) * w (ix2 k j)) + b (ix1 j)

/-- `a · w + b` as a whole 50000 × 256 array. -/
def affine (a : FVec Ideal ⟨2, ![50000, 256]⟩ .f32) (w : FVec Ideal ⟨2, ![256, 256]⟩ .f32) (b : FVec Ideal ⟨1, ![256]⟩ .f32) :
    FVec Ideal ⟨2, ![50000, 256]⟩ .f32 :=
  fun i => affineAt a w b (i 0) (i 1)

/-- The array read at coordinates `(n, j)`. -/
theorem affine_ix2 (a : FVec Ideal ⟨2, ![50000, 256]⟩ .f32) (w : FVec Ideal ⟨2, ![256, 256]⟩ .f32) (b : FVec Ideal ⟨1, ![256]⟩ .f32)
    (n : Fin 50000) (j : Fin 256) : affine a w b (ix2 n j) = affineAt a w b n j := rfl

end Cert.Dense

end
-- ==== Proof.RefAffine.lean ====
/-
  The reference's last four operations — the product of the aggregate with the weights, the bias row laid out
  as a 1 × 256 array and then repeated down the 50000 rows, and the sum of the two — are the affine map of the
  aggregate: entry `(n, j)` is `∑ k, agg (n, k) * w (k, j) + b j`. The aggregate itself (the gathered rows scaled
  by their edge weights and added into their destination rows) is left as the one term the reference's run names.
-/
import proofs.«105979_j14078902797020_1_alg».proof.Proof.Gen.ReferenceIdeal.Read
import proofs.«105979_j14078902797020_1_alg».proof.Proof.Affine

noncomputable section

open scoped BigOperators

namespace Cert.Dense

open Cert.ReferenceIdeal Cert.ReferenceIdeal.Read Idealize.ShloMosaic Idealize.ShloMosaic.ValueIdx

/-- Index by index: the matrix product reads row `n` of the aggregate and column `j` of the weights, the two
    broadcasts read `b j`, and the last addition is the extended reals'. -/
theorem reference_eq (x0 : FVec Ideal S50000x256 .f32) (x1 : FVec Ideal S800000x1 .f32) (x2 x3 : IVec S800000 32)
    (x4 : FVec Ideal S256x256 .f32) (x5 : FVec Ideal S256 .f32) :
    val_main_v15 (F := Ideal) x0 x1 x2 x3 x4 x5 = affine (val_main_v11 (F := Ideal) x0 x1 x2 x3) x4 x5 := by
  funext i
  obtain ⟨n, j, rfl⟩ : ∃ (n : Fin 50000) (j : Fin 256), i = ix2 n j := ⟨i 0, i 1, eq_ix2 i⟩
  have el : ∀ k : Fin 256, lidx_main_v12 (ix2 n j) k = ix2 n k := fun k => funext fun a => Fin.ext (by
    match a with | ⟨0, _⟩ => rfl | ⟨1, _⟩ => rfl)
  have er : ∀ k : Fin 256, ridx_main_v12 (ix2 n j) k = ix2 k j := fun k => funext fun a => Fin.ext (by
    match a with | ⟨0, _⟩ => rfl | ⟨1, _⟩ => rfl)
  have eb : idx_main_v13 (idx_main_v14 (ix2 n j)) = ix1 j := funext fun a => Fin.ext (by
    match a with | ⟨0, _⟩ => rfl)
  rw [val_main_v15_apply, val_main_v12_apply, val_main_v14_apply, val_main_v13_apply, affine_ix2]
  simp only [el, er, eb]
  rfl

end Cert.Dense

end
-- ==== Proof.BodyValue.lean ====
/-
  What one run of the kernel body stores, read at one entry. The body loads a 5000 × 256 block of rows `x`, the
  whole 256 × 256 weight matrix `w` (held in a narrower float format, which on the extended reals is the same
  number) and the 1 × 256 bias row `b`, multiplies `x` by `w` into an accumulator that starts at zero, and adds the
  bias row repeated down the 5000 rows. So entry `(p, q)` of what it stores is
  `∑ k, x (p, k) * w (k, q) + b (0, q)`: the zero accumulator contributes `0 + _`, the change of format and the two
  same-shape casts are identities, and the contraction's one axis is re-indexed by its coordinate `k`.
-/
import proofs.«105979_j14078902797020_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Cert.KernelIdeal Cert.KernelIdeal.Gen Idealize.ShloMosaic Idealize.ShloMosaic.ValueIdx

/-! ## The operand indices of the block's matrix product: output entry `(p, q)` and contraction coordinate `k`
    name entry `(p, k)` of the rows and entry `(k, q)` of the weights. -/

theorem lhs_row (i : S5000x256.Idx) (r : dot_S5000x256_S256x256_S5000x256_1_0_0_1_n_n.contr.Idx) :
    (dot_S5000x256_S256x256_S5000x256_1_0_0_1_n_n.lhsIdx i r 0).val = (i 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

theorem lhs_feature (i : S5000x256.Idx) (r : dot_S5000x256_S256x256_S5000x256_1_0_0_1_n_n.contr.Idx) :
    (dot_S5000x256_S256x256_S5000x256_1_0_0_1_n_n.lhsIdx i r 1).val = (r ⟨0, by decide⟩).val :=
  dot_S5000x256_S256x256_S5000x256_1_0_0_1_n_n.lhsIdx_val_of_single rfl i r

theorem rhs_feature (i : S5000x256.Idx) (r : dot_S5000x256_S256x256_S5000x256_1_0_0_1_n_n.contr.Idx) :
    (dot_S5000x256_S256x256_S5000x256_1_0_0_1_n_n.rhsIdx i r 0).val = (r ⟨0, by decide⟩).val :=
  dot_S5000x256_S256x256_S5000x256_1_0_0_1_n_n.rhsIdx_val_of_single rfl i r

theorem rhs_column (i : S5000x256.Idx) (r : dot_S5000x256_S256x256_S5000x256_1_0_0_1_n_n.contr.Idx) :
    (dot_S5000x256_S256x256_S5000x256_1_0_0_1_n_n.rhsIdx i r 1).val = (i 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- The block's matrix product into the zero accumulator, at entry `(p, q)`: the sum over the 256 features. -/
theorem block_product_apply (x : FVec Ideal S5000x256 .bf16) (w : FVec Ideal S256x256 .bf16) (p : Fin 5000) (q : Fin 256) :
    FloatOps.matmul dot_S5000x256_S256x256_S5000x256_1_0_0_1_n_n none x w (constant S5000x256 .f32 0x00000000#32) (ix2 p q)
      = ∑ k : Fin 256, x (ix2 p k) * w (ix2 k q) := by
  rw [Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k :=
    funext fun a => Fin.ext (by
      match a with
      | ⟨0, _⟩ => exact lhs_row _ _
      | ⟨1, _⟩ => exact (lhs_feature _ _).trans hk)
  have er : dot_S5000x256_S256x256_S5000x256_1_0_0_1_n_n.rhsIdx (ix2 p q)
      ((contrEquiv1 dot_S5000x256_S256x256_S5000x256_1_0_0_1_n_n 256 rfl rfl).symm k) = ix2 k q :=
    funext fun a => Fin.ext (by
      match a with
      | ⟨0, _⟩ => exact (rhs_feature _ _).trans hk
      | ⟨1, _⟩ => exact rhs_column _ _)
  rw [el, er]

/-- What the body stores, at entry `(p, q)` of its block. -/
theorem stored_apply (x : FVec Ideal S5000x256 .f32) (w : FVec Ideal S256x256 .bf16) (b : FVec Ideal S1x256 .f32)
    (p : Fin 5000) (q : Fin 256) :
    k0_pay1 (F := Ideal) x w b (ix2 p q) = (∑ k : Fin 256, x (ix2 p k) * w (ix2 k q)) + b (ix2 (0 : Fin 1) q) := by
  unfold k0_pay1
  simp only [shapeCast_self]
  show FloatOps.matmul dot_S5000x256_S256x256_S5000x256_1_0_0_1_n_n none (truncf .bf16 x bitsLt_bf16_f32) w
      (constant S5000x256 .f32 0x00000000#32) (ix2 p q) + broadcastTo S5000x256 b broadcasts_S1x256_S5000x256 (ix2 p q) = _
  rw [block_product_apply, broadcastTo_1b_ab_apply]
  rfl

/-- The same at any index of the block, by its two coordinates. -/
theorem stored_at (x : FVec Ideal S5000x256 .f32) (w : FVec Ideal S256x256 .bf16) (b : FVec Ideal S1x256 .f32)
    (j : S5000x256.Idx) :
    k0_pay1 (F := Ideal) x w b j = (∑ k : Fin 256, x (ix2 (j 0) k) * w (ix2 k (j 1))) + b (ix2 (0 : Fin 1) (j 1)) := by
  obtain ⟨p, q, rfl⟩ : ∃ (p : Fin 5000) (q : Fin 256), j = ix2 p q := ⟨j 0, j 1, eq_ix2 j⟩
  exact stored_apply x w b p q

end Cert.Dense

end
-- ==== Proof.BlockValue.lean ====
/-
  One grid point's write-back as a block of ONE whole-array function. The grid has ten points; point `t` reads rows
  `5000 t … 5000 t + 4999` of the aggregate, the whole weight matrix and the whole bias row, and writes the same rows
  of the result. Over ANY three arrays `A`, `W`, `B` of those shapes: what the body stores at point `t`, read through
  the result's block, is block `t` of `A · W + B` — entry `(p, q)` of the block is entry `(5000 t + p, q)` of the array,
  the body's sum over the features reads row `5000 t + p` of `A` and column `q` of `W`, and the bias is `B (0, q)`.
  The arrays are variables here, so nothing about how they were produced is ever looked at.
-/
import proofs.«105979_j14078902797020_1_alg».proof.Proof.Gen.KernelIdeal.Value
import proofs.«105979_j14078902797020_1_alg».proof.Proof.Affine
import proofs.«105979_j14078902797020_1_alg».proof.Proof.BodyValue
import Idealize.ShloMosaic.Lib.Pipeline.Value
import Idealize.ShloMosaic.Lib.ValueIdx

noncomputable section

open scoped BigOperators

namespace Cert.Dense

open Cert.KernelIdeal Cert.KernelIdeal.Gen Idealize.ShloMosaic Idealize.ShloMosaic.TcCoe Idealize.SL.Sem Idealize.ShloMosaic.ValueIdx
open Idealize.ShloMosaic.Pipeline (Dat)

/-- The printed index maps over the ten grid points: the rows' window and the result's window sit at block `t` of the
    row axis, the weights' and the bias's windows stay at block 0, and no window moves along the feature axis. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

variable (A : S50000x256.Idx → EReal) (W : S256x256.Idx → EReal) (B : S1x256.Idx → EReal)

/-- Block `t` of the rows' window, at `(p, k)`, is the array at row `5000 t + p`. -/
theorem read_rows (t : Fin cfg0.N) (p : Fin 5000) (k : Fin 256) (n : Fin 50000) (hn : n.val = 5000 * t.val + p.val) :
    (((cfg0.win 0).blk t).view.read (Elt Ideal) A : S5000x256.Idx → EReal) (ix2 p k) = A (ix2 n k) := by
  obtain ⟨h0, h1, -⟩ := index_facts t
  rw [View.read_apply]
  show A _ = A _
  congr 1
  funext a; apply Fin.ext
  match a with
  | ⟨0, _⟩ => show win0_0.index t 0 * 5000 + 1 * p.val = n.val; rw [h0, hn]; omega
  | ⟨1, _⟩ => show win0_0.index t 1 * 256 + 1 * k.val = k.val; rw [h1]; omega

/-- The weights' window is the whole matrix at every point. -/
theorem read_weights (t : Fin cfg0.N) (k q : Fin 256) :
    (((cfg0.win 1).blk t).view.read (Elt Ideal) W : S256x256.Idx → EReal) (ix2 k q) = W (ix2 k q) := by
  obtain ⟨-, -, h0, h1, -⟩ := index_facts t
  rw [View.read_apply]
  show W _ = W _
  congr 1
  funext a; apply Fin.ext
  match a with
  | ⟨0, _⟩ => show win0_1.index t 0 * 256 + 1 * k.val = k.val; rw [h0]; omega
  | ⟨1, _⟩ => show win0_1.index t 1 * 256 + 1 * q.val = q.val; rw [h1]; omega

/-- The bias's window is the whole 1 × 256 row at every point. -/
theorem read_bias (t : Fin cfg0.N) (u : Fin 1) (q : Fin 256) :
    (((cfg0.win 2).blk t).view.read (Elt Ideal) B : S1x256.Idx → EReal) (ix2 u q) = B (ix2 u q) := by
  obtain ⟨-, -, -, -, h0, h1, -⟩ := index_facts t
  rw [View.read_apply]
  show B _ = B _
  congr 1
  funext a; apply Fin.ext
  match a with
  | ⟨0, _⟩ => show win0_2.index t 0 * 1 + 1 * u.val = u.val; rw [h0]; omega
  | ⟨1, _⟩ => show win0_2.index t 1 * 256 + 1 * q.val = q.val; rw [h1]; omega

/-- Block `t` of the result's window, at `(p, q)`, is the array at row `5000 t + p`. -/
theorem read_result (G : S50000x256.Idx → EReal) (t : Fin cfg0.N) (p : Fin 5000) (q : Fin 256) (n : Fin 50000)
    (hn : n.val = 5000 * t.val + p.val) :
    (((cfg0.win 3).blk t).view.read (Elt Ideal) G : S5000x256.Idx → EReal) (ix2 p q) = G (ix2 n q) := by
  obtain ⟨-, -, -, -, -, -, h0, h1⟩ := index_facts t
  rw [View.read_apply]
  show G _ = G _
  congr 1
  funext a; apply Fin.ext
  match a with
  | ⟨0, _⟩ => show win0_3.index t 0 * 5000 + 1 * p.val = n.val; rw [h0, hn]; omega
  | ⟨1, _⟩ => show win0_3.index t 1 * 256 + 1 * q.val = q.val; rw [h1]; omega

/-- Ten blocks of 5000 rows stay inside the 50000 rows. -/
theorem row_lt (t : Fin cfg0.N) (p : Fin 5000) : 5000 * t.val + p.val < 50000 := by
  have hN : grid0.N = 10 := N_0
  have ht : t.val < grid0.N := t.isLt
  have hp := p.isLt
  omega

/-- What the body stores at point `t`, cut to what is written back, is block `t` of `A · W + B`. -/
theorem block_result (t : Fin cfg0.N) :
    (cfg0.win 3).cut (grid0.coords t)
        (k0_pay1 (F := Ideal) (((cfg0.win 0).blk t).view.read (Elt Ideal) A) (((cfg0.win 1).blk t).view.read (Elt Ideal) W)
          (((cfg0.win 2).blk t).view.read (Elt Ideal) B))
      = ((cfg0.win 3).blk t).view.read (Elt Ideal) (affine A W fun i => B (ix2 (0 : Fin 1) (i 0))) := by
  funext y
  obtain ⟨p, q, rfl⟩ : ∃ (p : Fin 5000) (q : Fin 256), y = ix2 p q := ⟨y 0, y 1, @eq_ix2 5000 256 y⟩
  rw [read_result _ t p q ⟨5000 * t.val + p.val, row_lt t p⟩ rfl, affine_ix2]
  show k0_pay1 (F := Ideal) _ _ _ (ix2 p q) = _
  rw [stored_apply]
  unfold affineAt
  congr 1
  · refine Finset.sum_congr rfl fun k _ => ?_
    rw [read_rows A t p k ⟨5000 * t.val + p.val, row_lt t p⟩ rfl, read_weights W t k q]
  · exact read_bias B t 0 q

end Cert.Dense

end
-- ==== Proof.Rows.lean ====
/-
  From the ten blocks to the whole result array. The three arrays the grid reads are taken as the region finds
  them (whatever they hold). Each grid point writes back its block of ONE function of them, `result` — rows times
  weights plus bias —, the ten blocks of 5000 rows tile the 50000 rows (row `r` lies in block `r / 5000`), and so after
  the run the result array IS `result`, with every argument unchanged.
-/
import proofs.«105979_j14078902797020_1_alg».proof.Proof.Gen.KernelIdeal.Value
import proofs.«105979_j14078902797020_1_alg».proof.Proof.BlockValue
import Idealize.ShloMosaic.Lib.Pipeline.Value

noncomputable section

open scoped BigOperators

namespace Cert.Dense

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The whole result: the affine map of the three arrays the grid's windows read — window 0 the aggregate, window 1
    the weights, window 2 the 1 × 256 bias row — as they are when the grid starts. -/
def result (c : Dev nD) : S50000x256.Idx → EReal :=
  affine (V m c (Pipeline.arrRef spec0 0)) (V m c (Pipeline.arrRef spec0 1))
    (fun i => (V m c (Pipeline.arrRef spec0 2) : S1x256.Idx → EReal) (ix2 (0 : Fin 1) (i 0)))

/-- What point `t` writes back is block `t` of `result`: the body's one store covers its buffer, its loads are the
    three windows' blocks, and the block lemma applies to the three arrays as they stand. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero hz]
  simp only [View.ld_unit_zero (S := S5000x256) hz, View.ld_unit_zero (S := S256x256) hz, View.ld_unit_zero (S := S1x256) hz]
  unfold iblk result
  exact block_result (V m c (Pipeline.arrRef spec0 0)) (V m c (Pipeline.arrRef spec0 1)) (V m c (Pipeline.arrRef spec0 2)) t

/-- An index of the result array lies in point `t`'s block iff each coordinate lies in the block's range on its axis. -/
theorem mem_block (t : Fin cfg0.N) (i : S50000x256.Idx) :
    i ∈ ((cfg0.win 3).blk t).view.set ↔ ∀ a : Fin 2, win0_3.index t a * S5000x256.size a ≤ (i a).val
      ∧ (i a).val < win0_3.index t a * S5000x256.size a + S5000x256.size a := by
  show i ∈ ((View.whole main_v14).slice (win0_3.rect t)).set ↔ _
  rw [View.set_slice_whole, Rect.mem_set_unit]
  exact Iff.rfl

/-- Every index is in some point's block: row `r` is in block `r / 5000`, and every point writes back. -/
theorem covered (i : S50000x256.Idx) :
    ∃ t : Fin cfg0.N, (cfg0.win 3).flush t = true ∧ i ∈ ((cfg0.win 3).blk t).view.set := by
  have hN : grid0.N = 10 := N_0
  have hi0 : (i 0).val < 50000 := (i 0).isLt
  have hi1 : (i 1).val < 256 := (i 1).isLt
  have ht : (i 0).val / 5000 < grid0.N := by omega
  obtain ⟨-, -, -, -, -, -, h0, h1⟩ := index_facts (⟨(i 0).val / 5000, ht⟩ : Fin cfg0.N)
  refine ⟨⟨(i 0).val / 5000, ht⟩, flush0_3 _, ?_⟩
  rw [mem_block]
  intro a
  match a with
  | ⟨0, _⟩ =>
    show win0_3.index ⟨(i 0).val / 5000, ht⟩ 0 * 5000 ≤ (i 0).val
      ∧ (i 0).val < win0_3.index ⟨(i 0).val / 5000, ht⟩ 0 * 5000 + 5000
    rw [h0]
    show (i 0).val / 5000 * 5000 ≤ (i 0).val ∧ (i 0).val < (i 0).val / 5000 * 5000 + 5000
    omega
  | ⟨1, _⟩ =>
    show win0_3.index ⟨(i 0).val / 5000, ht⟩ 1 * 256 ≤ (i 1).val
      ∧ (i 1).val < win0_3.index ⟨(i 0).val / 5000, ht⟩ 1 * 256 + 256
    rw [h1]
    omega

/-- So after the last point the result array is `result`. -/
theorem final (c : Dev nD) : (dats m 0 c).arrAt 3 cfg0.N = result m c :=
  (dats m 0 c).arrAt_eq_of_cover 3 (result m c) (fun t _ => flushed_eq m c t) covered

/-- The run, read: the result array at `result`, the six arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩)
    (Cert.KernelIdeal.Value.run_blocks m ρ)

end Cert.Dense

end
-- ==== Proof.EntryArrays.lean ====
/-
  What the three arrays the kernel reads hold when its grid starts, as functions of the program's arguments.
  * The per-node aggregate: the host operations that produce it — the source rows gathered (a negative source
    index first wrapped by the node count), each scaled by its edge's weight, then added into the row its edge's
    destination names, starting from zeros — are, operation for operation, the ones the reference performs, so the
    array is the very term the reference's run names for its own aggregate. It is never opened.
  * The weights: the argument matrix in a narrower float format, which on the extended reals is the same matrix.
  * The bias: the argument row viewed as a 1 × 256 array; entry `(0, j)` is the argument's entry `j`.
-/
import proofs.«105979_j14078902797020_1_alg».proof.Proof.Gen.KernelIdeal.Frame
import proofs.«105979_j14078902797020_1_alg».proof.Proof.Gen.ReferenceIdeal.Read
import Idealize.ShloMosaic.Lib.ValueLayout
import Idealize.ShloMosaic.Lib.StableHlo.Run

noncomputable section

namespace Cert.Dense

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The aggregate the kernel reads is the reference's aggregate of the same arguments. -/
theorem entry_aggregate (c : Dev nD) :
    (V m c main_v11 : S50000x256.Idx → EReal)
      = Cert.ReferenceIdeal.Read.val_main_v11 (F := Ideal) (m ((c : Thread nD τ).loc main_arg0))
          (m ((c : Thread nD τ).loc main_arg1)) (m ((c : Thread nD τ).loc main_arg2)) (m ((c : Thread nD τ).loc main_arg3)) := by
  dsimp only [Gen.V, Gen.hostOps0]
  after_results <;> rfl

/-- The weights the kernel reads are the argument's, entry by entry. -/
theorem entry_weights (c : Dev nD) :
    (V m c main_v12 : S256x256.Idx → EReal) = m ((c : Thread nD τ).loc main_arg4) := by
  have e : (V m c main_v12 : S256x256.Idx → EReal)
      = truncf (F := Ideal) .bf16 (m ((c : Thread nD τ).loc main_arg4) : FVec Ideal S256x256 .f32) bitsLt_bf16_f32 := by
    dsimp only [Gen.V, Gen.hostOps0]
    after_results <;> rfl
  rw [e]
  rfl

/-- The bias row the kernel reads, at `(0, j)`, is the argument's entry `j`. -/
theorem entry_bias (c : Dev nD) (u : Fin 1) (j : Fin 256) :
    (V m c main_v13 : S1x256.Idx → EReal) (ix2 u j) = (m ((c : Thread nD τ).loc main_arg5) : S256.Idx → EReal) (ix1 j) := by
  have e : (V m c main_v13 : S1x256.Idx → EReal)
      = shapeCast S1x256 (m ((c : Thread nD τ).loc main_arg5) : S256.Idx → EReal) shapeCasts_S256_S1x256 := by
    dsimp only [Gen.V, Gen.hostOps0]
    after_results <;> rfl
  rw [e]
  exact shapeCast_a_1a_apply _ _ u j

end Cert.Dense

end
-- ==== Proof.ResultArgs.lean ====
/-
  The kernel's result as a function of the program's ARGUMENTS. The three arrays the grid reads are what the host
  operations before it left: the aggregate (the same term the reference names for its own aggregate, of the same
  arguments), the weight matrix (the argument, in a format that is the identity on the extended reals) and the bias
  laid out as one row (entry `(0, j)` is the argument's entry `j`). So the result is the affine map of the
  reference's aggregate with the argument weights and the argument bias.
-/
import proofs.«105979_j14078902797020_1_alg».proof.Proof.Rows
import proofs.«105979_j14078902797020_1_alg».proof.Proof.EntryArrays

noncomputable section

namespace Cert.Dense

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The windows' arrays are the buffers `main_v11`, `main_v12`, `main_v13` of the program. -/
theorem result_named (c : Dev nD) :
    result m c = affine (V m c main_v11) (V m c main_v12)
      (fun i => (V m c main_v13 : S1x256.Idx → EReal) (ix2 (0 : Fin 1) (i 0))) := rfl

/-- The bias row read along its one row is the argument. -/
theorem bias_row (c : Dev nD) :
    (fun i : S256.Idx => (V m c main_v13 : S1x256.Idx → EReal) (ix2 (0 : Fin 1) (i 0)))
      = (m ((c : Thread nD τ).loc main_arg5) : S256.Idx → EReal) := by
  funext i
  obtain ⟨j, rfl⟩ : ∃ j : Fin 256, i = ix1 j := ⟨i 0, eq_ix1 i⟩
  exact entry_bias m c 0 j

/-- The result, from the arguments. -/
theorem result_args (c : Dev nD) :
    result m c = affine
      (Cert.ReferenceIdeal.Read.val_main_v11 (F := Ideal) (m ((c : Thread nD τ).loc main_arg0))
        (m ((c : Thread nD τ).loc main_arg1)) (m ((c : Thread nD τ).loc main_arg2)) (m ((c : Thread nD τ).loc main_arg3)))
      (m ((c : Thread nD τ).loc main_arg4)) (m ((c : Thread nD τ).loc main_arg5)) :=
  (result_named m c).trans
    (congr (congr (congrArg affine (entry_aggregate m c)) (entry_weights m c)) (bias_row m c))

end Cert.Dense

end
-- ==== Proof.lean ====
/-
  A graph-convolution layer against its reference, on the extended reals. Both programs first build the per-node
  aggregate with the same host operations: each edge gathers its source node's feature row (a negative source index
  wrapped by the node count), scales it by the edge's weight, and adds it into its destination node's row, starting
  from zeros. The reference then multiplies the aggregate by the weight matrix and adds the bias; the kernel does the
  same in ten blocks of 5000 rows, each block multiplied by the whole weight matrix into a zero accumulator and the
  bias row added. Entry `(n, j)` of both results is `∑ k, agg (n, k) * w (k, j) + b j`:
  * `Affine` states that function; `RefAffine` shows the reference's last operations are it;
  * `BodyValue` reads what the kernel body stores at one entry; `BlockValue` shows one grid point writes one block
    of the function, over any three arrays; `Rows` tiles the ten blocks into the whole array and reads the run;
  * `EntryArrays` says what the host operations leave in the three arrays the grid reads, the aggregate being the
    very term the reference names (never opened); `ResultArgs` puts these into the result.
  No law beyond the definition of the finite sum and `0 + x = x` is used, so the finiteness of the inputs is never
  opened. The idealization rewrote nothing, so that conjunct is trivial; the two kernels' frames are the generated
  ones, and the reference's frame is its run with the result dropped.
-/
import proofs.«105979_j14078902797020_1_alg».proof.Defs
import proofs.«105979_j14078902797020_1_alg».proof.Proof.Gen.Kernel
import proofs.«105979_j14078902797020_1_alg».proof.Proof.Gen.Kernel.Frame
import proofs.«105979_j14078902797020_1_alg».proof.Proof.Gen.KernelIdeal
import proofs.«105979_j14078902797020_1_alg».proof.Proof.Gen.KernelIdeal.Frame
import proofs.«105979_j14078902797020_1_alg».proof.Proof.Gen.KernelIdeal.Value
import proofs.«105979_j14078902797020_1_alg».proof.Proof.Gen.ReferenceIdeal
import proofs.«105979_j14078902797020_1_alg».proof.Proof.Gen.ReferenceIdeal.Run
import proofs.«105979_j14078902797020_1_alg».proof.Proof.Gen.ReferenceIdeal.Read
import proofs.«105979_j14078902797020_1_alg».proof.Proof.Gen.Pre_finite_inputs
import proofs.«105979_j14078902797020_1_alg».proof.Proof.RefAffine
import proofs.«105979_j14078902797020_1_alg».proof.Proof.ResultArgs
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the six arguments, the kernel's result array ends at the affine map of its aggregate,
    weights and bias (`Cert.Dense.run`, `result_args`), and the reference's at the same function of the same arguments
    (`Cert.Dense.reference_eq`). -/
theorem algebraic : Cert.algebraic_KernelIdeal_ReferenceIdeal := by
  intro m ρ m' ρ' _ hagree
  refine ⟨fun c => Cert.Dense.result m c, Cert.Dense.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v15_eq, Cert.Dense.reference_eq, e0, e1, e2, e3, e4, e5]
  exact (Cert.Dense.result_args m c).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
